-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x16 .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg5
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x1 .f32) (main_arg3 : FVec F S4096x1 .f32) (main_arg4 : FVec F S16x4096 .f32) (main_arg5 : FVec F S4096x16 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1024x1 : Shape := ⟨2, ![1024, 1]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S16x512, .f32⟩
  | .local _ .vmem, ⟨9, _⟩ => ⟨S16x512, .f32⟩
  | .local _ .vmem, ⟨10, _⟩ => ⟨S1024x16, .f32⟩
  | .local _ .vmem, ⟨11, _⟩ => ⟨S1024x16, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S16x512_S16x512_0_0 : ∀ a, (![0, 0] : Fin 2 → Nat) a + S16x512.size a ≤ S16x512.size a
  h_S16x512 : 0 < S16x512.numel
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x512_S1024x512_1_0_0_1_n_n_wf : DotDims.WF S1024x16 S16x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x4096.size a
  hwx0_4 : ∀ i : grid0.Coords, EltTy.bits .f32 = 32 ∨ (Rect.block (s := S16x4096) S16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S4096x16.size a
  hwx0_5 : ∀ i : grid0.Coords, EltTy.bits .f32 = 32 ∨ (Rect.block (s := S4096x16) S1024x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S16x4096 : Shape := ⟨2, ![16, 4096]⟩
abbrev S4096x16 : Shape := ⟨2, ![4096, 16]⟩
abbrev S4096 : Shape := ⟨1, ![4096]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x16, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Tiles.lean ====
/-
  Where each block sits in its array.

  The grid runs over 8 row blocks of the activations, 4 column blocks of the output and 8 blocks of the contracted
  axis, the last fastest: the point at position n is row block n / 32, column block (n / 8) mod 4, contraction block
  n mod 8. At that point the activations' tile is rows 1024 · (n / 32) + p, columns 512 · (n mod 8) + q; the quantised
  weights' tile is rows 1024 · ((n / 8) mod 4) + e, the same columns; the scales, zero points and second low-rank
  factor are the rows 1024 · ((n / 8) mod 4) + e of their arrays, the first low-rank factor the columns
  512 · (n mod 8) + q of its, the bias the columns 1024 · ((n / 8) mod 4) + e of its row, and the output block the
  rows of the activations' tile and the columns of the bias.

  Rows and columns are written as naturals taken modulo the array's extent, which changes nothing inside the array and
  lets a position be computed from n with no bound carried along.

  Two of the arrays the region reads are written by the host just before it: the activations flattened from
  [4, 2048, 4096] to [8192, 4096], and the bias viewed as the row [1, 4096]. Both are shape casts of the arguments.
-/
import proofs.«114667_j25185688224711_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

/-- Row p of row block mb, among the 8192 rows of the activations and of the output. -/
def rowX (mb : ℕ) (p : Fin 1024) : Fin 8192 := ⟨(mb * 1024 + p.val) % 8192, Nat.mod_lt _ (by decide)⟩
/-- Entry e of column block nb, among the 4096 output columns. -/
def rowW (nb : ℕ) (e : Fin 1024) : Fin 4096 := ⟨(nb * 1024 + e.val) % 4096, Nat.mod_lt _ (by decide)⟩
/-- Place q of contraction block j, among the 4096 contracted columns. -/
def col (j : ℕ) (q : Fin 512) : Fin 4096 := ⟨(j * 512 + q.val) % 4096, Nat.mod_lt _ (by decide)⟩

/-- The printed index maps, decided over the grid: each window's block index on each axis, as arithmetic of the
    position. -/
theorem index_maps : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = t.val / 8 % 4 ∧ win0_3.index t (1 : Fin 2) = 0
    ∧ win0_4.index t (0 : Fin 2) = 0 ∧ win0_4.index t (1 : Fin 2) = t.val % 8
    ∧ win0_5.index t (0 : Fin 2) = t.val / 8 % 4 ∧ win0_5.index t (1 : Fin 2) = 0
    ∧ win0_6.index t (0 : Fin 2) = 0 ∧ win0_6.index t (1 : Fin 2) = t.val / 8 % 4
    ∧ win0_7.index t (0 : Fin 2) = t.val / 32 ∧ win0_7.index t (1 : Fin 2) = t.val / 8 % 4 :=
  (by decide +kernel : ∀ t : Fin grid0.N, _)

variable {F : FTy → Type} [FloatOps F]
variable (m : (ℓ : Loc nD τ sig) → Buf (Elt F) ℓ)

/-- The activations' tile. -/
theorem x_tile (c : Dev nD) (t : Fin cfg0.N) (p : Fin 1024) (q : Fin 512) :
    (iblk m c 0 t : Vec F S1024x512 .f32) (ix2 p q) = V m c main_v0 (ix2 (rowX (t.val / 32) p) (col (t.val % 8) q)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * p.val = (t.val / 32 * 1024 + p.val) % 8192; rw [e00]; omega
  | ⟨1, _⟩ => show win0_0.index t (1 : Fin 2) * 512 + 1 * q.val = (t.val % 8 * 512 + q.val) % 4096; rw [e01]; omega

/-- The quantised weights' tile. -/
theorem q_tile (c : Dev nD) (t : Fin cfg0.N) (e : Fin 1024) (q : Fin 512) :
    (iblk m c 1 t : Vec F S1024x512 .i32) (ix2 e q) = V m c main_arg1 (ix2 (rowW (t.val / 8 % 4) e) (col (t.val % 8) q)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * e.val = (t.val / 8 % 4 * 1024 + e.val) % 4096; rw [e10]; omega
  | ⟨1, _⟩ => show win0_1.index t (1 : Fin 2) * 512 + 1 * q.val = (t.val % 8 * 512 + q.val) % 4096; rw [e11]; omega

/-- The scales of the point's output columns. -/
theorem scale_tile (c : Dev nD) (t : Fin cfg0.N) (e : Fin 1024) :
    (iblk m c 2 t : Vec F S1024x1 .f32) (ix2 e (0 : Fin 1)) = V m c main_arg2 (ix2 (rowW (t.val / 8 % 4) e) (0 : Fin 1)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_arg2 _ = V m c main_arg2 _
  refine congrArg (V m c main_arg2) (funext fun a => Fin.ext ?_)
  match a with
  | ⟨0, _⟩ => show win0_2.index t (0 : Fin 2) * 1024 + 1 * e.val = (t.val / 8 % 4 * 1024 + e.val) % 4096; rw [e20]; omega
  | ⟨1, _⟩ => show win0_2.index t (1 : Fin 2) * 1 + 1 * 0 = 0; rw [e21]

/-- The zero points of the point's output columns. -/
theorem zero_tile (c : Dev nD) (t : Fin cfg0.N) (e : Fin 1024) :
    (iblk m c 3 t : Vec F S1024x1 .f32) (ix2 e (0 : Fin 1)) = V m c main_arg3 (ix2 (rowW (t.val / 8 % 4) e) (0 : Fin 1)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_arg3 _ = V m c main_arg3 _
  refine congrArg (V m c main_arg3) (funext fun a => Fin.ext ?_)
  match a with
  | ⟨0, _⟩ => show win0_3.index t (0 : Fin 2) * 1024 + 1 * e.val = (t.val / 8 % 4 * 1024 + e.val) % 4096; rw [e30]; omega
  | ⟨1, _⟩ => show win0_3.index t (1 : Fin 2) * 1 + 1 * 0 = 0; rw [e31]

/-- The first low-rank factor's tile. -/
theorem a_tile (c : Dev nD) (t : Fin cfg0.N) (r : Fin 16) (q : Fin 512) :
    (iblk m c 4 t : Vec F S16x512 .f32) (ix2 r q) = V m c main_arg4 (ix2 r (col (t.val % 8) q)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_arg4 _ = V m c main_arg4 _
  refine congrArg (V m c main_arg4) (funext fun a => Fin.ext ?_)
  match a with
  | ⟨0, _⟩ => show win0_4.index t (0 : Fin 2) * 16 + 1 * r.val = r.val; rw [e40]; omega
  | ⟨1, _⟩ => show win0_4.index t (1 : Fin 2) * 512 + 1 * q.val = (t.val % 8 * 512 + q.val) % 4096; rw [e41]; omega

/-- The second low-rank factor's rows for the point's output columns. -/
theorem b_tile (c : Dev nD) (t : Fin cfg0.N) (e : Fin 1024) (r : Fin 16) :
    (iblk m c 5 t : Vec F S1024x16 .f32) (ix2 e r) = V m c main_arg5 (ix2 (rowW (t.val / 8 % 4) e) r) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_arg5 _ = V m c main_arg5 _
  refine congrArg (V m c main_arg5) (funext fun a => Fin.ext ?_)
  match a with
  | ⟨0, _⟩ => show win0_5.index t (0 : Fin 2) * 1024 + 1 * e.val = (t.val / 8 % 4 * 1024 + e.val) % 4096; rw [e50]; omega
  | ⟨1, _⟩ => show win0_5.index t (1 : Fin 2) * 16 + 1 * r.val = r.val; rw [e51]; omega

/-- The bias entries of the point's output columns. -/
theorem bias_tile (c : Dev nD) (t : Fin cfg0.N) (e : Fin 1024) :
    (iblk m c 6 t : Vec F S1x1024 .f32) (ix2 (0 : Fin 1) e) = V m c main_v1 (ix2 (0 : Fin 1) (rowW (t.val / 8 % 4) e)) := by
  obtain ⟨e00, e01, e10, e11, e20, e21, e30, e31, e40, e41, e50, e51, e60, e61, -⟩ := index_maps t
  have hN : t.val < 256 := lt_of_lt_of_eq t.isLt (show cfg0.N = 256 from N_0)
  unfold iblk
  rw [View.read_apply]
  show V m c main_v1 _ = V m c main_v1 _
  refine congrArg (V m c main_v1) (funext fun a => Fin.ext ?_)
  match a with
  | ⟨0, _⟩ => show win0_6.index t (0 : Fin 2) * 1 + 1 * 0 = 0; rw [e60]
  | ⟨1, _⟩ => show win0_6.index t (1 : Fin 2) * 1024 + 1 * e.val = (t.val / 8 % 4 * 1024 + e.val) % 4096; rw [e61]; omega

/-- Entry (p, e) of the output block of a point is the output array's entry at the activations' row and the bias's
    column. -/
theorem out_entry (t : Fin cfg0.N) (p e : Fin 1024) :
    ((cfg0.win 7).blk t).view.emb (ix2 p e) = ix2 (rowX (t.val / 32) p) (rowW (t.val / 8 % 4) e) := by
  obtain ⟨-, -, -, -, -, -, -, -, -, -, -, -, -, -, e70, e71⟩ := index_maps t
  have hN : t.val < 256 := lt_of_lt_of_eq t.isLt (show cfg0.N = 256 from N_0)
  refine funext fun a => Fin.ext ?_
  match a with
  | ⟨0, _⟩ => show win0_7.index t (0 : Fin 2) * 1024 + 1 * p.val = (t.val / 32 * 1024 + p.val) % 8192; rw [e70]; omega
  | ⟨1, _⟩ => show win0_7.index t (1 : Fin 2) * 1024 + 1 * e.val = (t.val / 8 % 4 * 1024 + e.val) % 4096; rw [e71]; omega

/-- The region finds the activations flattened to [8192, 4096]. -/
theorem x_rows (c : Dev nD) :
    (V m c main_v0 : S8192x4096.Idx → Elt F .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias as the row [1, 4096]. -/
theorem bias_row (c : Dev nD) :
    (V m c main_v1 : S1x4096.Idx → Elt F .f32)
      = shapeCast S1x4096 (m ((c : Thread nD τ).loc main_arg6)) shapeCasts_S4096_S1x4096 := by
  show StableHlo.after hostOps0 (fun b => m (c, b)) (Proc.devRef .tc main_v1) = _
  after_results
  rfl

end Cert.KernelIdeal.Tiles

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibTransposedMatmul.lean ====
/-
  A matrix product with the right operand transposed, read at an index, at the ideal values.

  For the dimension numbers of x · Wᵀ — an [A, K] matrix times a [B, K] matrix, contracting the columns of both, no
  batch axis — a `tpu.matmul` into the zero accumulator is, at (p, e), the sum over k of L(p, k) · R(e, k): a sum
  indexed by `Fin K`, with both operands read at indices written by coordinates. The contraction index of the
  library's general statement is re-indexed through its one coordinate, and the operand indices it names are computed
  axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem transposedRhs_lhsIdx (A K B : Nat) (p : Fin A) (e : Fin B) (k : Fin K) :
    (DotDims.transposedRhs A K B).lhsIdx (ix2 p e) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (e, k). -/
theorem transposedRhs_rhsIdx (A K B : Nat) (p : Fin A) (e : Fin B) (k : Fin K) :
    (DotDims.transposedRhs A K B).rhsIdx (ix2 p e) ((contrEquiv1 (DotDims.transposedRhs A K B) K rfl rfl).symm k) = ix2 e k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] × [B, K]ᵀ `tpu.matmul` into the zero accumulator, read at (p, e): Σ_k L(p, k) · R(e, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (e : Fin B) :
    FloatOps.matmul (DotDims.transposedRhs A K B) prec lhs rhs (constant ⟨2, ![A, B]⟩ .f32 0x00000000#32) (ix2 p e)
      = ∑ k : Fin K, lhs (ix2 p k) * rhs (ix2 e k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Idealize.ShloMosaic.ValueIdx

end
-- ==== Proof.TileStep.lean ====
/-
  One grid step of the kernel body, entry by entry, at the ideal values.

  At a grid point the body holds a [1024, 512] tile of activations X, the [1024, 512] tile of quantised weights Q for
  the output columns of the point, those columns' zero points Z and scales S (each [1024, 1]), the [16, 512] tile of
  the first low-rank factor A, the [1024, 16] rows of the second factor B, and the running [1024, 1024] accumulator.
  It forms the effective weight W(e, q) = (Q(e, q) − Z(e)) · S(e) + t · Σ_r B(e, r) · A(r, q) and adds X · Wᵀ to the
  accumulator:

      step(p, e) = acc(p, e) + Σ_q X(p, q) · W(e, q).

  The accumulator starts from the zero block, and the last step adds the bias row: out(p, e) = acc(p, e) + bias(e).
  Changes of float format are the identity on the extended reals, a shape cast to the same shape is the identity, a
  [1024, 1] column broadcast along the rows reads its one entry per row, a [1, 1024] row broadcast down the columns
  reads its one entry per column.
-/
import proofs.«114667_j25185688224711_1_alg».proof.Proof.Gen.KernelIdeal.Skeleton
import Idealize.ShloMosaic.Lib.Pipeline.Value
import Idealize.ShloMosaic.Lib.ValueIdx
import Idealize.ShloMosaic.PureOps.Ideal.Laws
import proofs.«114667_j25185688224711_1_alg».proof.Proof.LibPlainMatmul
import proofs.«114667_j25185688224711_1_alg».proof.Proof.LibTransposedMatmul

noncomputable section

namespace Cert.KernelIdeal.TileStep

open Cert.KernelIdeal Cert.KernelIdeal.Gen Idealize.ShloMosaic Idealize.ShloMosaic.ValueIdx

/-- The low-rank scaling, as the extended real its word encodes. -/
abbrev scaling : EReal := Ideal.ofBits .f32 0x40000000#32

/-- A [1024, 1] column spread along 512 lanes reads, at (e, q), the column's entry e. -/
theorem column_spread (v : Vec Ideal S1024x1 .f32) (e : Fin 1024) (q : Fin 512) :
    broadcastTo S1024x512 v broadcasts_S1024x1_S1024x512 (ix2 e q) = v (ix2 e 0) :=
  broadcastTo_apply v broadcasts_S1024x1_S1024x512 (ix2 e q) (ix2 e 0) (fun a => match a with
    | ⟨0, _⟩ => by show e.val = if (1024 : Nat) = 1 then 0 else e.val; rw [if_neg (by decide)]
    | ⟨1, _⟩ => by show 0 = if (1 : Nat) = 1 then 0 else q.val; rw [if_pos rfl])

/-- A [1, 1024] row spread down 1024 rows reads, at (p, e), the row's entry e. -/
theorem row_spread (v : Vec Ideal S1x1024 .f32) (p e : Fin 1024) :
    broadcastTo S1024x1024 v broadcasts_S1x1024_S1024x1024 (ix2 p e) = v (ix2 0 e) :=
  broadcastTo_apply v broadcasts_S1x1024_S1024x1024 (ix2 p e) (ix2 0 e) (fun a => match a with
    | ⟨0, _⟩ => by show 0 = if (1 : Nat) = 1 then 0 else p.val; rw [if_pos rfl]
    | ⟨1, _⟩ => by show e.val = if (1024 : Nat) = 1 then 0 else e.val; rw [if_neg (by decide)])

/-- The low-rank tile B · A at (e, q). -/
theorem low_rank_tile (b : FVec Ideal S1024x16 .bf16) (a : FVec Ideal S16x512 .bf16) (e : Fin 1024) (q : Fin 512) :
    matmul dot_S1024x16_S16x512_S1024x512_1_0_0_1_n_n none b a (constant (F := Ideal) S1024x512 .f32 0x00000000#32) (ix2 e q)
      = ∑ r : Fin 16, b (ix2 e r) * a (ix2 r q) :=
  matmul_plain_zero_apply 1024 16 512 none b a e q

/-- The contraction X · Wᵀ at (p, e). -/
theorem contraction_tile (x w : FVec Ideal S1024x512 .bf16) (p e : Fin 1024) :
    matmul dot_S1024x512_S1024x512_S1024x1024_1_1_0_0_n_n none x w (constant (F := Ideal) S1024x1024 .f32 0x00000000#32) (ix2 p e)
      = ∑ q : Fin 512, x (ix2 p q) * w (ix2 e q) :=
  matmul_transposedRhs_zero_apply 1024 512 1024 none x w p e

/-- The effective weight of a tile at (e, q). -/
def effWeight (Q : Vec Ideal S1024x512 .i32) (Z S : Vec Ideal S1024x1 .f32) (A : Vec Ideal S16x512 .f32)
    (B : Vec Ideal S1024x16 .f32) (e : Fin 1024) (q : Fin 512) : EReal :=
  ((((Q (ix2 e q)).toInt : ℝ) : EReal) - Z (ix2 e 0)) * S (ix2 e 0) + scaling * ∑ r : Fin 16, B (ix2 e r) * A (ix2 r q)

/-- The accumulation step at (p, e): the accumulator plus the tile's contraction with the effective weight. -/
theorem step_apply (Q : Vec Ideal S1024x512 .i32) (Z S : Vec Ideal S1024x1 .f32) (A : Vec Ideal S16x512 .f32)
    (B : Vec Ideal S1024x16 .f32) (X : Vec Ideal S1024x512 .f32) (acc : Vec Ideal S1024x1024 .f32) (p e : Fin 1024) :
    k0_pay3 (F := Ideal) Q Z S A B X acc (ix2 p e) = acc (ix2 p e) + ∑ q : Fin 512, X (ix2 p q) * effWeight Q Z S A B e q := by
  unfold k0_pay3
  rw [shapeCast_self, shapeCast_self]
  refine (addf_apply _ _ _).trans ?_
  refine congrArg (acc (ix2 p e) + ·) ?_
  refine (contraction_tile _ _ p e).trans ?_
  refine Finset.sum_congr rfl fun q _ => ?_
  refine congrArg (X (ix2 p q) * ·) ?_
  show (addf _ _ : FVec Ideal S1024x512 .f32) (ix2 e q) = _
  refine (addf_apply _ _ _).trans ?_
  unfold effWeight
  refine congrArg₂ (· + ·) ?_ ?_
  · refine (mulf_apply _ _ _).trans ?_
    refine congrArg₂ (· * ·) ?_ (column_spread S e q)
    refine (subf_apply _ _ _).trans ?_
    exact congrArg₂ (· - ·) rfl (column_spread Z e q)
  · refine (mulf_apply _ _ _).trans ?_
    exact congrArg₂ (· * ·) rfl (low_rank_tile _ _ e q)

/-- The reset stores the zero block. -/
theorem reset_apply (i : S1024x1024.Idx) : k0_pay2 (F := Ideal) i = 0 := by
  unfold k0_pay2
  rw [shapeCast_self]
  exact Ideal.ofBits_zero_f32

/-- The last step adds the bias row: at (p, e) the accumulator plus the bias entry e. -/
theorem finish_apply (acc : Vec Ideal S1024x1024 .f32) (bias : Vec Ideal S1x1024 .f32) (p e : Fin 1024) :
    k0_pay1 (F := Ideal) acc bias (ix2 p e) = acc (ix2 p e) + bias (ix2 0 e) := by
  unfold k0_pay1
  rw [shapeCast_self]
  refine (addf_apply _ _ _).trans ?_
  exact congrArg (acc (ix2 p e) + ·) (row_spread bias p e)

end Cert.KernelIdeal.TileStep

end
-- ==== Proof.CaseValues.lean ====
/-
  What each case of the body leaves behind, as values.

  The body runs in one of three cases, by the position k of the grid point along the contracted axis. At k = 0 it
  stores the zero block into the accumulator, reads it back, and stores one accumulation step over it. At 0 < k < 7
  it stores one accumulation step over what the previous point left. At k = 7 it does the same, reads the accumulator
  back, adds the bias row and stores the sum into the output block. Each store writes its whole buffer and each load
  reads a whole buffer, so the accumulator (and, at k = 7, the output block) ends holding exactly the last store's
  payload, with every load replaced by the contents of the buffer it reads. These hold for any float instance.
-/
import proofs.«114667_j25185688224711_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

/-- A rectangle at offset (0, 0) starts at the origin. -/
theorem hz : (![0, 0] : Fin 2 → Nat) = fun _ => 0 := funext fun a => by fin_cases a <;> rfl

/-- At 0 < k < 7 the accumulator, holding `acc`, ends at one accumulation step over `acc`. -/
theorem carried_B (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S16x512 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (x0 : Vec F S1024x512 .f32) (x1 : Vec F S1024x512 .i32) (x2 : Vec F S1024x1 .f32) (x3 : Vec F S1024x1 .f32) (x4 : Vec F S16x512 .f32) (x5 : Vec F S1024x16 .f32) (x6 : Vec F S1x1024 .f32) (acc : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 acc = k0_pay3 x1 x3 x2 x4 x5 x0 acc := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 acc)]
  unfold kernelRun0_B
  dsimp only
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S1024x1) hz, View.ld_unit_zero (S := S16x512) hz, View.ld_unit_zero (S := S1024x16) hz, View.ld_unit_zero (S := S1x1024) hz, View.ld_unit_zero (S := S1024x1024) hz]

/-- At k = 7 the accumulator, holding `acc`, ends at one accumulation step over `acc`, -/
theorem carried_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S16x512 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x512 .f32) (x1 : Vec F S1024x512 .i32) (x2 : Vec F S1024x1 .f32) (x3 : Vec F S1024x1 .f32) (x4 : Vec F S16x512 .f32) (x5 : Vec F S1024x16 .f32) (x6 : Vec F S1x1024 .f32) (acc : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 acc = k0_pay3 x1 x3 x2 x4 x5 x0 acc := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 acc)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S1024x1) hz, View.ld_unit_zero (S := S16x512) hz, View.ld_unit_zero (S := S1024x16) hz, View.ld_unit_zero (S := S1x1024) hz, View.ld_unit_zero (S := S1024x1024) hz]

/-- and the output block ends at that step plus the bias row. -/
theorem output_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S16x512 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x512 .f32) (x1 : Vec F S1024x512 .i32) (x2 : Vec F S1024x1 .f32) (x3 : Vec F S1024x1 .f32) (x4 : Vec F S16x512 .f32) (x5 : Vec F S1024x16 .f32) (x6 : Vec F S1x1024 .f32) (acc : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 acc = k0_pay1 (k0_pay3 x1 x3 x2 x4 x5 x0 acc) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 acc)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S1024x1) hz, View.ld_unit_zero (S := S16x512) hz, View.ld_unit_zero (S := S1024x16) hz, View.ld_unit_zero (S := S1x1024) hz, View.ld_unit_zero (S := S1024x1024) hz]

/-- At k = 0 the accumulator ends at one accumulation step over the zero block. -/
theorem carried_A (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S16x512 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i) (x0 : Vec F S1024x512 .f32) (x1 : Vec F S1024x512 .i32) (x2 : Vec F S1024x1 .f32) (x3 : Vec F S1024x1 .f32) (x4 : Vec F S16x512 .f32) (x5 : Vec F S1024x16 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay3 x1 x3 x2 x4 x5 x0 k0_pay2 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, harg10.read_unread, harg11.read_unread, View.ld_unit_zero (S := S1024x512) hz, View.ld_unit_zero (S := S1024x1) hz, View.ld_unit_zero (S := S16x512) hz, View.ld_unit_zero (S := S1024x16) hz, View.ld_unit_zero (S := S1x1024) hz, View.ld_unit_zero (S := S1024x1024) hz]

end Cert.KernelIdeal.CaseValues

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibBlockSum.lean ====
import Mathlib.Algebra.BigOperators.Fin

/-
  Summing a finite sequence block by block.

  A sequence of a * b terms, cut into a consecutive blocks of b terms each, has the same sum whether one adds the
  terms in order or first adds each block and then adds the block sums: the term at place q of block c is the term at
  position c * b + q, and every position below a * b is of that form exactly once.
-/

open scoped BigOperators

namespace Cert.BlockSum

/-- Place q of block c, among a blocks of b places, is a position below a * b. -/
theorem pos_lt {a b : Nat} (c : Fin a) (q : Fin b) : c.val * b + q.val < a * b := by
  have hc : c.val + 1 ≤ a := c.isLt
  have hq : q.val < b := q.isLt
  calc c.val * b + q.val < c.val * b + b := Nat.add_lt_add_left hq _
    _ = (c.val + 1) * b := (Nat.succ_mul c.val b).symm
    _ ≤ a * b := Nat.mul_le_mul_right b hc

/-- The sum over the blocks of the sums inside each block is the sum of the whole sequence: for g defined on the
    positions below a * b, the sum over c < a of the sum over q < b of g (c * b + q) equals the sum of g. -/
theorem sum_blocks {M : Type*} [AddCommMonoid M] (a b : Nat) (g : Fin (a * b) → M) :
    ∑ c : Fin a, ∑ q : Fin b, g ⟨c.val * b + q.val, pos_lt c q⟩ = ∑ k : Fin (a * b), g k := by
  rw [← Equiv.sum_comp finProdFinEquiv g, Fintype.sum_prod_type]
  refine Finset.sum_congr rfl fun c _ => Finset.sum_congr rfl fun q _ => ?_
  refine congrArg g (Fin.ext ?_)
  show c.val * b + q.val = q.val + b * c.val
  rw [Nat.mul_comm, Nat.add_comm]

/-- Place q of block c, among 16 blocks of 512 places, is a position below 8192. -/
theorem pos_lt_16_512 (c : Fin 16) (q : Fin 512) : c.val * 512 + q.val < 8192 := by
  have := c.isLt
  have := q.isLt
  omega

/-- Sixteen blocks of 512: for g defined on the positions below 8192, the sum over c < 16 of the sum over q < 512 of
    g (c * 512 + q) equals the sum of g. The bound on the position is an argument, so that the statement fits
    whatever proof of the bound the other side carries. -/
theorem sum_blocks_16_512 {M : Type*} [AddCommMonoid M] (g : Fin 8192 → M)
    (h : ∀ (c : Fin 16) (q : Fin 512), c.val * 512 + q.val < 8192) :
    ∑ c : Fin 16, ∑ q : Fin 512, g ⟨c.val * 512 + q.val, h c q⟩ = ∑ k : Fin 8192, g k :=
  sum_blocks 16 512 g

/-- The same, with the bound proved once and for all. -/
theorem sum_blocks_16_512' {M : Type*} [AddCommMonoid M] (g : Fin 8192 → M) :
    ∑ c : Fin 16, ∑ q : Fin 512, g ⟨c.val * 512 + q.val, pos_lt_16_512 c q⟩ = ∑ k : Fin 8192, g k :=
  sum_blocks_16_512 g pos_lt_16_512

end Cert.BlockSum
-- ==== Proof.Spec.lean ====
/-
  One output entry, in the two arrangements, and the law that joins them.

  Fix an output row and an output column. Write x for the row of activations (4096 reals), w for the column's row of
  quantised weights, z and s for the column's zero point and scale, A (16 × 4096) and B (16 entries, the column's row of
  the second low-rank factor) for the low-rank pair, b for the bias and t for the scaling.

    fused:     Σ_d x_d · ((w_d − z) · s + t · Σ_r B_r · A_{r,d}) + b
    unfused:   (Σ_d x_d · ((w_d − z) · s) + b) + t · Σ_r (Σ_d x_d · A_{r,d}) · B_r

  The first folds the low-rank correction into the weight before the one contraction; the second contracts three
  times. On real numbers they agree: distribute x_d over the sum, pull t out, and exchange the sums over d and r.
  On the extended reals distributivity fails at the infinities, so the law is stated for real entries only.

  The fused side is computed 512 columns at a time: the sum over the eight column blocks of the sum inside each block
  is the sum over all 4096 columns.
-/
import Idealize.ShloMosaic.PureOps.Ideal
import Idealize.ShloMosaic.Lib.ValueIdx
import proofs.«114667_j25185688224711_1_alg».proof.Proof.LibRealEntries
import proofs.«114667_j25185688224711_1_alg».proof.Proof.LibBlockSum

noncomputable section

namespace Cert.LoraSpec

open Finset Cert.LibRealEntries Idealize.ShloMosaic Idealize.ShloMosaic.ValueIdx

/-- The low-rank scaling, as the extended real its word encodes. -/
abbrev scaling : EReal := Ideal.ofBits .f32 0x40000000#32

/-- The scaling's word encodes a real number (a normal binade: its exponent field is neither all ones nor zero). -/
theorem scaling_real : IsReal scaling := by
  show IsReal (Ideal.ofBits .f32 0x40000000#32)
  unfold Ideal.ofBits Ideal.ieee
  dsimp only
  rw [if_neg (by decide), if_neg (by decide)]
  exact ⟨_, rfl⟩

/-- Entry (b, s, o) of the result in the unfused arrangement, over the whole argument arrays: activations x,
    quantised weights wq, scales sc, zero points zr, low-rank factors A and B, bias. -/
def unfused (x : (⟨3, ![4, 2048, 4096]⟩ : Shape).Idx → EReal) (wq : (⟨2, ![4096, 4096]⟩ : Shape).Idx → BitVec 32)
    (sc zr : (⟨2, ![4096, 1]⟩ : Shape).Idx → EReal) (A : (⟨2, ![16, 4096]⟩ : Shape).Idx → EReal)
    (B : (⟨2, ![4096, 16]⟩ : Shape).Idx → EReal) (bias : (⟨1, ![4096]⟩ : Shape).Idx → EReal)
    (b : Fin 4) (s : Fin 2048) (o : Fin 4096) : EReal :=
  ((∑ d : Fin 4096, x (ix3 b s d) * (((((wq (ix2 o d)).toInt : ℝ) : EReal) - zr (ix2 o (0 : Fin 1))) * sc (ix2 o (0 : Fin 1))))
      + bias (ix1 o))
    + scaling * ∑ r : Fin 16, (∑ d : Fin 4096, x (ix3 b s d) * A (ix2 r d)) * B (ix2 o r)

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight blocks of 512 columns are the 4096 columns: for g on the naturals, the sum over j < 8 of the sum over
    q < 512 of g (j · 512 + q) is the sum of g over the numbers below 4096. -/
theorem sum_col_blocks {M : Type*} [AddCommMonoid M] (g : ℕ → M) :
    ∑ j ∈ Finset.range 8, ∑ q : Fin 512, g (j * 512 + q.val) = ∑ d : Fin 4096, g d.val := by
  rw [Finset.sum_range]
  exact Cert.BlockSum.sum_blocks 8 512 (fun d : Fin (8 * 512) => g d.val)

/-- The law on the reals. -/
theorem fused_real (x w : Fin 4096 → ℝ) (z s : ℝ) (A : Fin 16 → Fin 4096 → ℝ) (B : Fin 16 → ℝ) (b t : ℝ) :
    (∑ d, x d * ((w d - z) * s + t * ∑ r, B r * A r d)) + b
      = ((∑ d, x d * ((w d - z) * s)) + b) + t * ∑ r, (∑ d, x d * A r d) * B r := by
  have h1 : ∀ d, x d * ((w d - z) * s + t * ∑ r, B r * A r d)
      = x d * ((w d - z) * s) + t * ∑ r, x d * A r d * B r := by
    intro d
    rw [mul_add]
    congr 1
    simp only [Finset.mul_sum]
    refine Finset.sum_congr rfl fun r _ => ?_
    ring
  have h2 : ∑ r, (∑ d, x d * A r d) * B r = ∑ d, ∑ r, x d * A r d * B r := by
    rw [Finset.sum_comm]
    refine Finset.sum_congr rfl fun r _ => ?_
    rw [Finset.sum_mul]
  rw [Finset.sum_congr rfl fun d _ => h1 d, Finset.sum_add_distrib, ← Finset.mul_sum, h2]
  ring

/-- The law on real entries of the extended reals. -/
theorem fused_entry {x w : Fin 4096 → EReal} {z s : EReal} {A : Fin 16 → Fin 4096 → EReal} {B : Fin 16 → EReal}
    {b t : EReal} (hx : ∀ d, IsReal (x d)) (hw : ∀ d, IsReal (w d)) (hz : IsReal z) (hs : IsReal s)
    (hA : ∀ r d, IsReal (A r d)) (hB : ∀ r, IsReal (B r)) (hb : IsReal b) (ht : IsReal t) :
    (∑ d, x d * ((w d - z) * s + t * ∑ r, B r * A r d)) + b
      = ((∑ d, x d * ((w d - z) * s)) + b) + t * ∑ r, (∑ d, x d * A r d) * B r := by
  choose xr hxr using hx
  choose wr hwr using hw
  choose Ar hAr using hA
  choose Br hBr using hB
  obtain ⟨z, rfl⟩ := hz; obtain ⟨s, rfl⟩ := hs; obtain ⟨b, rfl⟩ := hb; obtain ⟨t, rfl⟩ := ht
  simp only [hxr, hwr, hAr, hBr, ← EReal.coe_mul, ← EReal.coe_sub, ← EReal.coe_add, ← coe_sum]
  exact congrArg _ (fused_real xr wr z s Ar Br b t)

end Cert.LoraSpec

end
-- ==== Proof.RunningSum.lean ====
/-
  The accumulator along the contracted axis.

  Write W(o, d) = (Q(o, d) − Z(o)) · S(o) + t · Σ_r B(o, r) · A(r, d) for the effective weight of output column o at
  contracted column d, over the whole arrays, and

      term(mb, nb, j)(p, e) = Σ_{q < 512} X(1024·mb + p, 512·j + q) · W(1024·nb + e, 512·j + q)

  for what contraction block j adds to entry (p, e) of output block (mb, nb). One step of the body at the point at
  position n adds term(n / 32, (n / 8) mod 4, n mod 8) to the accumulator, because each tile the body holds there is
  the corresponding piece of its array. The accumulator is reset where n mod 8 = 0 and carried from point to point
  otherwise, and n − 1 has the same row and column block as n when n mod 8 ≠ 0; so by induction on n, after the point
  at position n the accumulator holds

      Σ_{j ≤ n mod 8} term(n / 32, (n / 8) mod 4, j),

  and where n mod 8 = 7 the output block holds the sum over all eight j plus the bias of the block's columns.
-/
import proofs.«114667_j25185688224711_1_alg».proof.Proof.Tiles
import proofs.«114667_j25185688224711_1_alg».proof.Proof.TileStep
import proofs.«114667_j25185688224711_1_alg».proof.Proof.CaseValues
import proofs.«114667_j25185688224711_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunningSum

open Cert.KernelIdeal Cert.KernelIdeal.Gen Cert.KernelIdeal.Tiles Cert.KernelIdeal.TileStep Cert.KernelIdeal.CaseValues

section Arrays

variable (X : S8192x4096.Idx → EReal) (Q : S4096x4096.Idx → BitVec 32) (Sc Zr : S4096x1.Idx → EReal)
  (A : S16x4096.Idx → EReal) (B : S4096x16.Idx → EReal)

/-- The effective weight of output column o at contracted column d. -/
def weight (o d : Fin 4096) : EReal :=
  ((((Q (ix2 o d)).toInt : ℝ) : EReal) - Zr (ix2 o (0 : Fin 1))) * Sc (ix2 o (0 : Fin 1))
    + scaling * ∑ r : Fin 16, B (ix2 o r) * A (ix2 r d)

/-- What contraction block j adds to entry (p, e) of output block (mb, nb). -/
def term (mb nb j : ℕ) (p e : Fin 1024) : EReal :=
  ∑ q : Fin 512, X (ix2 (rowX mb p) (col j q)) * weight Q Sc Zr A B (rowW nb e) (col j q)

/-- All eight contraction blocks together are the whole contraction: the sum of the eight terms is the sum over the
    4096 contracted columns. -/
theorem sum_terms (mb nb : ℕ) (p e : Fin 1024) :
    ∑ j ∈ Finset.range 8, term X Q Sc Zr A B mb nb j p e
      = ∑ d : Fin 4096, X (ix2 (rowX mb p) d) * weight Q Sc Zr A B (rowW nb e) d := by
  have h := Cert.LoraSpec.sum_col_blocks (fun d' : ℕ =>
    X (ix2 (rowX mb p) (⟨d' % 4096, Nat.mod_lt _ (by decide)⟩ : Fin 4096))
      * weight Q Sc Zr A B (rowW nb e) (⟨d' % 4096, Nat.mod_lt _ (by decide)⟩ : Fin 4096))
  refine Eq.trans ?_ (h.trans (Finset.sum_congr rfl fun d _ => ?_))
  · rfl
  · have hd : (⟨d.val % 4096, Nat.mod_lt _ (by decide)⟩ : Fin 4096) = d := Fin.ext (Nat.mod_eq_of_lt d.isLt)
    rw [hd]

end Arrays

variable (m : (ℓ : Loc nD τ sig) → Buf (Elt Ideal) ℓ)

/-- One step of the body at a grid point adds that point's term to the accumulator. -/
theorem step_at (c : Dev nD) (t : Fin cfg0.N) (acc : Vec Ideal S1024x1024 .f32) (p e : Fin 1024) :
    k0_pay3 (F := Ideal) (iblk m c 1 t) (iblk m c 3 t) (iblk m c 2 t) (iblk m c 4 t) (iblk m c 5 t) (iblk m c 0 t) acc (ix2 p e)
      = acc (ix2 p e) + term (V m c main_v0) (V m c main_arg1) (V m c main_arg2) (V m c main_arg3) (V m c main_arg4) (V m c main_arg5) (t.val / 32) (t.val / 8 % 4) (t.val % 8) p e := by
  refine (step_apply (iblk m c 1 t) (iblk m c 3 t) (iblk m c 2 t) (iblk m c 4 t) (iblk m c 5 t) (iblk m c 0 t) acc p e).trans ?_
  refine congrArg (acc (ix2 p e) + ·) ?_
  unfold term
  refine Finset.sum_congr rfl fun q _ => ?_
  refine congrArg₂ (· * ·) (x_tile m c t p q) ?_
  unfold effWeight weight
  refine congrArg₂ (· + ·) (congrArg₂ (· * ·) (congrArg₂ (· - ·) ?_ (zero_tile m c t e)) (scale_tile m c t e))
    (congrArg (scaling * ·) (Finset.sum_congr rfl fun r _ => congrArg₂ (· * ·) (b_tile m c t e r) (a_tile m c t r q)))
  exact congrArg (fun w : BitVec 32 => ((w.toInt : ℝ) : EReal)) (q_tile m c t e q)

/-- After the point at position n the accumulator holds the terms of the contraction blocks up to n mod 8. -/
theorem carried (c : Dev nD) : ∀ (n : ℕ) (hn : n < cfg0.N) (p e : Fin 1024),
    (outsAt0 m c n hn).2 (ix2 p e)
      = ∑ j ∈ Finset.range (n % 8 + 1), term (V m c main_v0) (V m c main_arg1) (V m c main_arg2) (V m c main_arg3) (V m c main_arg4) (V m c main_arg5) (n / 32) (n / 8 % 4) j p e := by
  intro n
  induction n with
  | zero =>
    intro hn p e
    have h0 : (⟨0, hn⟩ : Fin cfg0.N).val % 8 = 0 := rfl
    have h1 : ¬(⟨0, hn⟩ : Fin cfg0.N).val % 8 = 7 := (by decide : ¬(0 : ℕ) % 8 = 7)
    rw [outsAt0_A m c ⟨0, hn⟩ h0 h1]
    dsimp only
    refine (congrFun (carried_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)) (ix2 p e)).trans ?_
    refine (step_at m c ⟨0, hn⟩ (k0_pay2 (F := Ideal)) p e).trans ?_
    rw [reset_apply, zero_add]
    exact (Finset.sum_range_one (fun j => term (V m c main_v0) (V m c main_arg1) (V m c main_arg2) (V m c main_arg3) (V m c main_arg4) (V m c main_arg5) (0 / 32) (0 / 8 % 4) j p e)).symm
  | succ n ih =>
    intro hn p e
    have hN : n + 1 < 256 := lt_of_lt_of_eq hn (show cfg0.N = 256 from N_0)
    by_cases h0 : (n + 1) % 8 = 0
    · have h1 : ¬(n + 1) % 8 = 7 := by omega
      rw [outsAt0_A m c ⟨n + 1, hn⟩ h0 h1]
      dsimp only
      refine (congrFun (carried_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)) (ix2 p e)).trans ?_
      refine (step_at m c ⟨n + 1, hn⟩ (k0_pay2 (F := Ideal)) p e).trans ?_
      rw [reset_apply, zero_add]
      show term (V m c main_v0) (V m c main_arg1) (V m c main_arg2) (V m c main_arg3) (V m c main_arg4) (V m c main_arg5) ((n + 1) / 32) ((n + 1) / 8 % 4) ((n + 1) % 8) p e = _
      rw [h0]
      exact (Finset.sum_range_one (fun j => term (V m c main_v0) (V m c main_arg1) (V m c main_arg2) (V m c main_arg3) (V m c main_arg4) (V m c main_arg5) ((n + 1) / 32) ((n + 1) / 8 % 4) j p e)).symm
    · have a1 : n / 32 = (n + 1) / 32 := by omega
      have a2 : n / 8 % 4 = (n + 1) / 8 % 4 := by omega
      have a3 : n % 8 + 1 = (n + 1) % 8 := by omega
      have key : ∀ f : ℕ → ℕ → ℕ → EReal,
          (∑ j ∈ Finset.range (n % 8 + 1), f (n / 32) (n / 8 % 4) j) + f ((n + 1) / 32) ((n + 1) / 8 % 4) ((n + 1) % 8)
            = ∑ j ∈ Finset.range ((n + 1) % 8 + 1), f ((n + 1) / 32) ((n + 1) / 8 % 4) j := by
        intro f
        rw [a1, a2, a3, Finset.sum_range_succ]
      have prev := ih (Nat.lt_of_succ_lt hn) p e
      by_cases h1 : (n + 1) % 8 = 7
      · rw [outsAt0_C m c ⟨n + 1, hn⟩ h0 h1]
        dsimp only
        refine (congrFun (carried_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2) (ix2 p e)).trans ?_
        refine (step_at m c ⟨n + 1, hn⟩ _ p e).trans ?_
        rw [prev]
        exact key (fun a b j => term (V m c main_v0) (V m c main_arg1) (V m c main_arg2) (V m c main_arg3) (V m c main_arg4) (V m c main_arg5) a b j p e)
      · rw [outsAt0_B m c ⟨n + 1, hn⟩ h0 h1]
        dsimp only
        refine (congrFun (carried_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2) (ix2 p e)).trans ?_
        refine (step_at m c ⟨n + 1, hn⟩ _ p e).trans ?_
        rw [prev]
        exact key (fun a b j => term (V m c main_v0) (V m c main_arg1) (V m c main_arg2) (V m c main_arg3) (V m c main_arg4) (V m c main_arg5) a b j p e)

/-- Where n mod 8 = 7 the output block holds all eight terms plus the bias of the block's columns. -/
theorem output (c : Dev nD) (t : Fin cfg0.N) (h7 : t.val % 8 = 7) (p e : Fin 1024) :
    (outsAt0 m c t.val t.isLt).1 (ix2 p e)
      = (∑ j ∈ Finset.range 8, term (V m c main_v0) (V m c main_arg1) (V m c main_arg2) (V m c main_arg3) (V m c main_arg4) (V m c main_arg5) (t.val / 32) (t.val / 8 % 4) j p e)
        + V m c main_v1 (ix2 (0 : Fin 1) (rowW (t.val / 8 % 4) e)) := by
  have h0 : ¬t.val % 8 = 0 := by omega
  have hacc := carried m c t.val t.isLt p e
  rw [h7] at hacc
  rw [outsAt0_C m c t h0 h7] at hacc ⊢
  dsimp only at hacc ⊢
  refine (congrFun (output_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p e)).trans ?_
  refine (finish_apply _ _ p e).trans ?_
  refine congrArg₂ (· + ·) ?_ (bias_tile m c t e)
  refine Eq.trans ?_ hacc
  exact (congrFun (carried_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p e)).symm

end Cert.KernelIdeal.RunningSum

end
-- ==== Proof.KernelResult.lean ====
/-
  The kernel's result array.

  The output block of row block mb and column block nb is written back once, after the point whose contraction block
  is the last (position (4 · mb + nb) · 8 + 7), holding at (p, e) the eight terms and the bias. The eight terms are the
  whole contraction, so the block is the corresponding block of one [8192, 4096] array, the fused entries

      out(R, O) = Σ_d X(R, d) · W(O, d) + bias(O),

  and since every (R, O) lies in the block of row block R / 1024 and column block O / 1024, the output array ends
  holding the fused entries everywhere. The host then views it as [4, 2048, 4096].
-/
import proofs.«114667_j25185688224711_1_alg».proof.Proof.RunningSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Tiles Cert.KernelIdeal.RunningSum

variable (m : (ℓ : Loc nD τ sig) → Buf (Elt Ideal) ℓ) (ρ : Dev nD → PrngReg)

/-- The fused entries over given arrays: activations X, quantised weights Q, scales Sc, zero points Zr, low-rank factors
    A and B, and the bias row Bi. -/
def fusedEntries (X : S8192x4096.Idx → EReal) (Q : S4096x4096.Idx → BitVec 32) (Sc Zr : S4096x1.Idx → EReal)
    (A : S16x4096.Idx → EReal) (B : S4096x16.Idx → EReal) (Bi : S1x4096.Idx → EReal) : S8192x4096.Idx → EReal := fun i =>
  (∑ d : Fin 4096, X (ix2 (i 0) d) * weight Q Sc Zr A B (i 1) d) + Bi (ix2 (0 : Fin 1) (i 1))

/-- The fused entries, over the arrays as the region finds them. -/
def fusedRows (c : Dev nD) : S8192x4096.Idx → EReal :=
  fusedEntries (V m c main_v0) (V m c main_arg1) (V m c main_arg2) (V m c main_arg3) (V m c main_arg4) (V m c main_arg5) (V m c main_v1)

/-- What a flushing point writes back is its block of the fused entries. -/
theorem flushed_eq (c : Dev nD) (t : Fin cfg0.N) (hf : (cfg0.win 7).flush t = true) :
    (dats m 0 c).flushed 7 t = ((cfg0.win 7).blk t).view.read (Elt Ideal) (fusedRows m c) := by
  have h7 : t.val % 8 = 7 := (flush0_7 t).mp hf
  show (cfg0.win 7).cut (grid0.coords t) ((dats m 0 c).after 7 t) = _
  rw [after0_7]
  have key : (outsAt0 m c t.val t.isLt).1 = fun y : S1024x1024.Idx => fusedRows m c (((cfg0.win 7).blk t).view.emb y) := by
    funext y
    obtain ⟨p, e, rfl⟩ : ∃ (p e : Fin 1024), y = ix2 p e := ⟨y 0, y 1, eq_ix2 y⟩
    refine (output m c t h7 p e).trans ?_
    refine Eq.trans ?_ (congrArg (fusedRows m c) (out_entry t p e)).symm
    exact congrArg (· + V m c main_v1 (ix2 (0 : Fin 1) (rowW (t.val / 8 % 4) e)))
      (sum_terms (V m c main_v0) (V m c main_arg1) (V m c main_arg2) (V m c main_arg3) (V m c main_arg4) (V m c main_arg5) (t.val / 32) (t.val / 8 % 4) p e)
  exact key

/-- Every entry of the output array lies in a block that is written back. -/
theorem cover (i : S8192x4096.Idx) :
    ∃ t : Fin cfg0.N, (cfg0.win 7).flush t = true ∧ i ∈ ((cfg0.win 7).blk t).view.set := by
  have h0 : (i 0).val < 8192 := (i 0).isLt
  have h1 : (i 1).val < 4096 := (i 1).isLt
  have hN : cfg0.N = 256 := N_0
  have hn : ((i 0).val / 1024 * 4 + (i 1).val / 1024) * 8 + 7 < cfg0.N := by rw [hN]; omega
  refine ⟨⟨((i 0).val / 1024 * 4 + (i 1).val / 1024) * 8 + 7, hn⟩, (flush0_7 _).mpr (by show (((i 0).val / 1024 * 4 + (i 1).val / 1024) * 8 + 7) % 8 = 7; omega), ?_⟩
  obtain ⟨-, -, -, -, -, -, -, -, -, -, -, -, -, -, e70, e71⟩ := index_maps ⟨((i 0).val / 1024 * 4 + (i 1).val / 1024) * 8 + 7, hn⟩
  show i ∈ ((View.whole main_v2).slice (win0_7.rect ⟨((i 0).val / 1024 * 4 + (i 1).val / 1024) * 8 + 7, hn⟩)).set
  rw [View.set_slice_whole, Rect.mem_set_unit]
  intro a
  match a with
  | ⟨0, _⟩ =>
    show win0_7.index ⟨((i 0).val / 1024 * 4 + (i 1).val / 1024) * 8 + 7, hn⟩ (0 : Fin 2) * 1024 ≤ (i 0).val
      ∧ (i 0).val < win0_7.index ⟨((i 0).val / 1024 * 4 + (i 1).val / 1024) * 8 + 7, hn⟩ (0 : Fin 2) * 1024 + 1024
    rw [e70]
    show (((i 0).val / 1024 * 4 + (i 1).val / 1024) * 8 + 7) / 32 * 1024 ≤ (i 0).val
      ∧ (i 0).val < (((i 0).val / 1024 * 4 + (i 1).val / 1024) * 8 + 7) / 32 * 1024 + 1024
    omega
  | ⟨1, _⟩ =>
    show win0_7.index ⟨((i 0).val / 1024 * 4 + (i 1).val / 1024) * 8 + 7, hn⟩ (1 : Fin 2) * 1024 ≤ (i 1).val
      ∧ (i 1).val < win0_7.index ⟨((i 0).val / 1024 * 4 + (i 1).val / 1024) * 8 + 7, hn⟩ (1 : Fin 2) * 1024 + 1024
    rw [e71]
    show (((i 0).val / 1024 * 4 + (i 1).val / 1024) * 8 + 7) / 8 % 4 * 1024 ≤ (i 1).val
      ∧ (i 1).val < (((i 0).val / 1024 * 4 + (i 1).val / 1024) * 8 + 7) / 8 % 4 * 1024 + 1024
    omega

/-- The output array ends holding the fused entries. -/
theorem final (c : Dev nD) : (dats m 0 c).arrAt 7 cfg0.N = fusedRows m c :=
  (dats m 0 c).arrAt_eq_of_cover 7 (fusedRows m c) (flushed_eq m c) cover

/-- The program's result: the fused entries viewed as [4, 2048, 4096]. -/
theorem result_eq (c : Dev nD) :
    Pipeline.afterTail₀ cfgs (dats m) 0 (V0 m) [hostOps1] c main_v3
      = shapeCast S4x2048x4096 (fusedRows m c) shapeCasts_S8192x4096_S4x2048x4096 := by
  unfold Pipeline.afterTail₀
  show StableHlo.after hostOps1 _ (Proc.devRef .tc main_v3) = _
  after_results
  have hw := (Pipeline.withArrays_arr spec0 launch0.win.arr_inj c (V0 m c) (fun w => (dats m 0 c).arrAt w (cfgs 0).N) 7).trans (final m c)
  funext i
  exact congrFun (congrArg (fun v => shapeCast S4x2048x4096 v shapeCasts_S8192x4096_S4x2048x4096) hw) i

/-- The run, read: the result at the fused entries viewed as [4, 2048, 4096], the arguments unchanged. -/
theorem run : θ_run defs (onTc (τ := τ) (main (F := Ideal))) ⟨m, fun _ => 0, ρ⟩ fun r => ∀ c : Dev nD,
      r.2.mem ((c.tc : Thread nD τ).loc main_v3) = shapeCast S4x2048x4096 (fusedRows m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v3 (Pipeline.mem_restRefs_of main_v3 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Result

end
-- ==== Proof.Bridge.lean ====
/-
  The kernel's result is the unfused entry, on real inputs.

  The result at (b, s, o) is the fused entry of row b · 2048 + s and column o of the [8192, 4096] output, because the
  final view as [4, 2048, 4096] keeps the row-major position. That row of the flattened activations is the row (b, s)
  of the activations, the bias row at o is the bias at o, and the other arrays are the arguments themselves. With every
  float entry real, and an integer weight a real once converted, the fused and the unfused arrangements of the entry
  agree.
-/
import proofs.«114667_j25185688224711_1_alg».proof.Proof.KernelResult

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.KernelIdeal.Tiles Cert.KernelIdeal.RunningSum Cert.KernelIdeal.Result
open Cert.LoraSpec Cert.LibRealEntries

/-- Over any arrays: if row R = b · 2048 + s of the flattened activations X is the row (b, s) of x, and the bias row
    Bi at o is the bias at o, then on real entries the fused entry at (R, o) is the unfused entry at (b, s, o). -/
theorem fused_eq_unfused (X : S8192x4096.Idx → EReal) (x : S4x2048x4096.Idx → EReal) (Q : S4096x4096.Idx → BitVec 32)
    (Sc Zr : S4096x1.Idx → EReal) (A : S16x4096.Idx → EReal) (B : S4096x16.Idx → EReal) (Bi : S1x4096.Idx → EReal)
    (bias : S4096.Idx → EReal) (b : Fin 4) (s : Fin 2048) (o : Fin 4096) (R : Fin 8192)
    (hX : ∀ d : Fin 4096, X (ix2 R d) = x (ix3 b s d)) (hBi : Bi (ix2 (0 : Fin 1) o) = bias (ix1 o))
    (hx : ∀ i, IsReal (x i)) (hSc : ∀ i, IsReal (Sc i)) (hZr : ∀ i, IsReal (Zr i)) (hA : ∀ i, IsReal (A i))
    (hB : ∀ i, IsReal (B i)) (hbias : ∀ i, IsReal (bias i)) :
    fusedEntries X Q Sc Zr A B Bi (ix2 R o) = unfused x Q Sc Zr A B bias b s o := by
  show (∑ d : Fin 4096, X (ix2 R d) * weight Q Sc Zr A B o d) + Bi (ix2 (0 : Fin 1) o) = _
  rw [hBi, Finset.sum_congr rfl fun d _ => congrArg (· * weight Q Sc Zr A B o d) (hX d)]
  unfold weight unfused
  exact fused_entry (x := fun d => x (ix3 b s d)) (w := fun d => (((Q (ix2 o d)).toInt : ℝ) : EReal))
    (z := Zr (ix2 o (0 : Fin 1))) (s := Sc (ix2 o (0 : Fin 1))) (A := fun r d => A (ix2 r d)) (B := fun r => B (ix2 o r))
    (b := bias (ix1 o)) (t := scaling)
    (fun d => hx _) (fun d => IsReal.coe _) (hZr _) (hSc _) (fun r d => hA _) (fun r => hB _) (hbias _) scaling_real

variable (m : (ℓ : Loc nD τ sig) → Buf (Elt Ideal) ℓ)

/-- The result at (b, s, o), on real inputs, is the unfused entry of the arguments. -/
theorem result_entry (c : Dev nD)
    (h0 : ∀ i, IsReal ((m ((c.tc : Thread nD τ).loc main_arg0)) i)) (h2 : ∀ i, IsReal ((m ((c.tc : Thread nD τ).loc main_arg2)) i))
    (h3 : ∀ i, IsReal ((m ((c.tc : Thread nD τ).loc main_arg3)) i)) (h4 : ∀ i, IsReal ((m ((c.tc : Thread nD τ).loc main_arg4)) i))
    (h5 : ∀ i, IsReal ((m ((c.tc : Thread nD τ).loc main_arg5)) i)) (h6 : ∀ i, IsReal ((m ((c.tc : Thread nD τ).loc main_arg6)) i))
    (b : Fin 4) (s : Fin 2048) (o : Fin 4096) :
    shapeCast S4x2048x4096 (fusedRows m c) shapeCasts_S8192x4096_S4x2048x4096 (ix3 b s o)
      = unfused (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s o := by
  have hb : b.val < 4 := b.isLt
  have hs : s.val < 2048 := s.isLt
  have hR : b.val * 2048 + s.val < 8192 := by omega
  refine (shapeCast_apply (fusedRows m c) shapeCasts_S8192x4096_S4x2048x4096 (ix3 b s o) (ix2 (⟨b.val * 2048 + s.val, hR⟩ : Fin 8192) o) (by
    rw [Shape.rowMajor_val_two, Shape.rowMajor_val_three]
    show (b.val * 2048 + s.val) * 4096 + o.val = (b.val * 2048 + s.val) * 4096 + o.val
    rfl)).trans ?_
  have hX : ∀ d : Fin 4096, (V m c main_v0 : S8192x4096.Idx → EReal) (ix2 (⟨b.val * 2048 + s.val, hR⟩ : Fin 8192) d)
      = (m ((c.tc : Thread nD τ).loc main_arg0)) (ix3 b s d) := by
    intro d
    rw [x_rows m c]
    exact shapeCast_apply _ shapeCasts_S4x2048x4096_S8192x4096 (ix2 (⟨b.val * 2048 + s.val, hR⟩ : Fin 8192) d) (ix3 b s d) (by
      rw [Shape.rowMajor_val_two, Shape.rowMajor_val_three]
      show (b.val * 2048 + s.val) * 4096 + d.val = (b.val * 2048 + s.val) * 4096 + d.val
      rfl)
  have hBi : (V m c main_v1 : S1x4096.Idx → EReal) (ix2 (0 : Fin 1) o) = (m ((c.tc : Thread nD τ).loc main_arg6)) (ix1 o) := by
    rw [bias_row m c]
    exact shapeCast_apply _ shapeCasts_S4096_S1x4096 (ix2 (0 : Fin 1) o) (ix1 o) (by
      rw [Shape.rowMajor_val_two, Shape.rowMajor_val_one]
      show o.val = 0 * 4096 + o.val
      omega)
  unfold fusedRows
  rw [V_main_arg1 m c, V_main_arg2 m c, V_main_arg3 m c, V_main_arg4 m c, V_main_arg5 m c]
  exact fused_eq_unfused (V m c main_v0) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (V m c main_v1) (m ((c.tc : Thread nD τ).loc main_arg6)) b s o ⟨b.val * 2048 + s.val, hR⟩ hX hBi h0 h2 h3 h4 h5 h6

end Cert.KernelIdeal.Bridge

end
-- ==== Proof.ReferenceResult.lean ====
/-
  The reference's result, entry by entry.

  The reference dequantises the whole weight matrix, contracts the activations with it, adds the bias, and adds the
  scaling times the activations contracted with the first low-rank factor and then with the second. Read at (b, s, o),
  with each stage read at the index its operands are taken at, this is the unfused arrangement of the entry: the
  broadcasts of the per-column scale, zero point and bias read their one entry for column o, the three contractions
  are sums over their one contracted coordinate, and the conversion of a quantised weight to a float is the integer
  itself.
-/
import proofs.«114667_j25185688224711_1_alg».proof.Proof.Gen.ReferenceIdeal.Read
import proofs.«114667_j25185688224711_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.LoraSpec

/-- The reference's last stage at (b, s, o) is the unfused entry. -/
theorem reference_entry (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S16x4096, .f32⟩ : BufTy).Contents (Elt Ideal))
    (x5 : (⟨S4096x16, .f32⟩ : BufTy).Contents (Elt Ideal)) (x6 : (⟨S4096, .f32⟩ : BufTy).Contents (Elt Ideal))
    (b : Fin 4) (s : Fin 2048) (o : Fin 4096) :
    val_main_v13 (F := Ideal) x0 x1 x2 x3 x4 x5 x6 (ix3 b s o) = unfused x0 x1 x2 x3 x4 x5 x6 b s o := by
  have l5 : ∀ k, lidx_main_v5 (ix3 b s o) k = ix3 b s k := fun k => funext fun a => by
    match a with | ⟨0, _⟩ => rfl | ⟨1, _⟩ => rfl | ⟨2, _⟩ => rfl
  have r5 : ∀ k, ridx_main_v5 (ix3 b s o) k = ix2 o k := fun k => funext fun a => by
    match a with | ⟨0, _⟩ => rfl | ⟨1, _⟩ => rfl
  have i1 : ∀ k : Fin 4096, idx_main_v1 (ix2 o k) = ix2 o (0 : Fin 1) := fun k => funext fun a => by
    match a with | ⟨0, _⟩ => rfl | ⟨1, _⟩ => rfl
  have i3 : ∀ k : Fin 4096, idx_main_v3 (ix2 o k) = ix2 o (0 : Fin 1) := fun k => funext fun a => by
    match a with | ⟨0, _⟩ => rfl | ⟨1, _⟩ => rfl
  have i67 : idx_main_v6 (idx_main_v7 (ix3 b s o)) = ix1 o := funext fun a => by
    match a with | ⟨0, _⟩ => rfl
  have l10 : ∀ r, lidx_main_v10 (ix3 b s o) r = ix3 b s r := fun r => funext fun a => by
    match a with | ⟨0, _⟩ => rfl | ⟨1, _⟩ => rfl | ⟨2, _⟩ => rfl
  have r10 : ∀ r, ridx_main_v10 (ix3 b s o) r = ix2 o r := fun r => funext fun a => by
    match a with | ⟨0, _⟩ => rfl | ⟨1, _⟩ => rfl
  have l9 : ∀ (r : Fin 16) k, lidx_main_v9 (ix3 b s r) k = ix3 b s k := fun r k => funext fun a => by
    match a with | ⟨0, _⟩ => rfl | ⟨1, _⟩ => rfl | ⟨2, _⟩ => rfl
  have r9 : ∀ (r : Fin 16) k, ridx_main_v9 (ix3 b s r) k = ix2 r k := fun r k => funext fun a => by
    match a with | ⟨0, _⟩ => rfl | ⟨1, _⟩ => rfl
  rw [val_main_v13_apply, val_main_v8_apply, val_main_v5_apply, val_main_v7_apply, val_main_v6_apply, val_main_v12_apply,
    val_main_v11_apply, val_main_cst_apply, val_main_v10_apply]
  simp only [l5, r5, val_main_v4_apply, val_main_v2_apply, val_main_v0_apply, val_main_v1_apply, val_main_v3_apply, i1, i3,
    i67, l10, r10, val_main_v9_apply, l9, r9]
  rfl

/-- The reference's result array is the unfused entries. -/
theorem reference_eq (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S16x4096, .f32⟩ : BufTy).Contents (Elt Ideal))
    (x5 : (⟨S4096x16, .f32⟩ : BufTy).Contents (Elt Ideal)) (x6 : (⟨S4096, .f32⟩ : BufTy).Contents (Elt Ideal)) :
    val_main_v13 (F := Ideal) x0 x1 x2 x3 x4 x5 x6 = fun i => unfused x0 x1 x2 x3 x4 x5 x6 (i 0) (i 1) (i 2) := by
  funext i
  obtain ⟨b, s, o, rfl⟩ : ∃ (b : Fin 4) (s : Fin 2048) (o : Fin 4096), i = ix3 b s o := ⟨i 0, i 1, i 2, eq_ix3 i⟩
  exact reference_entry x0 x1 x2 x3 x4 x5 x6 b s o

end Cert.ReferenceIdeal.RefValue

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«114667_j25185688224711_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.RealInputs.lean ====
/-
  The precondition says every float entry is a real number.

  The precondition is the conjunction of six tests, one per float argument, each "every entry's absolute value is below
  +∞". A conjunction of one-bit words that is 1 has every conjunct 1, and a test that holds says every entry of its
  array is a real number (neither infinity). The quantised weights are integers and are not tested: an integer
  converted to a float is a real number already.
-/
import proofs.«114667_j25185688224711_1_alg».proof.Pre_finite_inputs
import proofs.«114667_j25185688224711_1_alg».proof.Proof.Gen.Pre_finite_inputs
import proofs.«114667_j25185688224711_1_alg».proof.Proof.LibFinitePre

noncomputable section

namespace Cert.Pre_finite_inputs.RealInputs

open Cert.Pre_finite_inputs Cert.Pre_finite_inputs.Gen Idealize.ShloMosaic Idealize.ShloMosaic.ValueIdx
open Cert.LibRealEntries Cert.LibFinitePre

/-- Where the precondition holds, every entry of every float argument is a real. -/
theorem all_inputs_real (a0 : FVec Ideal S4x2048x4096 .f32) (a1 : IVec S4096x4096 32) (a2 a3 : FVec Ideal S4096x1 .f32)
    (a4 : FVec Ideal S16x4096 .f32) (a5 : FVec Ideal S4096x16 .f32) (a6 : FVec Ideal S4096 .f32)
    (h : fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) := by
  have h0 := congrFun h ix0
  unfold fn fn_part1 at h0
  dsimp only at h0
  obtain ⟨h0, t6⟩ := IntOp.andi_eq_one.1 h0
  obtain ⟨h0, t5⟩ := IntOp.andi_eq_one.1 h0
  obtain ⟨h0, t4⟩ := IntOp.andi_eq_one.1 h0
  obtain ⟨h0, t3⟩ := IntOp.andi_eq_one.1 h0
  obtain ⟨t0, t2⟩ := IntOp.andi_eq_one.1 h0
  exact ⟨all_real a0 _ _ _ t0, all_real a2 _ _ _ t2, all_real a3 _ _ _ t3, all_real a4 _ _ _ t4, all_real a5 _ _ _ t5,
    all_real a6 _ _ _ t6⟩

end Cert.Pre_finite_inputs.RealInputs

end
-- ==== Proof.lean ====
/-
  A quantised linear layer with a low-rank correction, computed two ways.

  The layer maps activations x (4 × 2048 rows of 4096) to 4096 outputs per row. Its weight is stored as integers wq
  with a per-output scale and zero point, W(o, d) = (wq(o, d) − zero(o)) · scale(o), and is corrected by a rank-16
  product, scaled by t = 2. The reference computes, for each row and output o,

      (Σ_d x_d · W(o, d) + bias(o)) + t · Σ_r (Σ_d x_d · A(r, d)) · B(o, r),

  three contractions. The kernel folds the correction into the weight first,

      Σ_d x_d · (W(o, d) + t · Σ_r B(o, r) · A(r, d)) + bias(o),

  one contraction, carried out 512 columns of d at a time into an accumulator that is reset at the first block and
  written out, with the bias added, after the eighth. On real numbers the two agree by distributing x_d over the
  corrected weight and exchanging the sums over d and r; the order in which the eight blocks are added does not matter.
  The precondition (every float input finite) makes every entry real, and an integer weight converted to a float is
  real, so the law applies on the extended reals, where it would fail at an infinity.

  The pieces: the law and the unfused entry (Spec); one step of the body read entry by entry (TileStep); what each case
  of the body leaves in the accumulator and the output block (CaseValues); where each block sits in its array (Tiles);
  the accumulator along the contracted axis, by induction on the position in the grid (RunningSum); the output array
  and the result (KernelResult); the reference read entry by entry (ReferenceResult); the precondition read as "every
  entry is real" (RealInputs); and the two results joined (Bridge). The idealization rewrote nothing, so the kernel's
  idealization is its own text read on the extended reals.
-/
import proofs.«114667_j25185688224711_1_alg».proof.Defs
import proofs.«114667_j25185688224711_1_alg».proof.Proof.Gen.Kernel
import proofs.«114667_j25185688224711_1_alg».proof.Proof.Gen.Kernel.Skeleton
import proofs.«114667_j25185688224711_1_alg».proof.Proof.Gen.Kernel.Launch
import proofs.«114667_j25185688224711_1_alg».proof.Proof.Gen.Kernel.Points
import proofs.«114667_j25185688224711_1_alg».proof.Proof.Gen.Kernel.Frame
import proofs.«114667_j25185688224711_1_alg».proof.Proof.Gen.KernelIdeal
import proofs.«114667_j25185688224711_1_alg».proof.Proof.Gen.KernelIdeal.Skeleton
import proofs.«114667_j25185688224711_1_alg».proof.Proof.Gen.KernelIdeal.Launch
import proofs.«114667_j25185688224711_1_alg».proof.Proof.Gen.KernelIdeal.Points
import proofs.«114667_j25185688224711_1_alg».proof.Proof.Gen.KernelIdeal.Frame
import proofs.«114667_j25185688224711_1_alg».proof.Proof.Gen.ReferenceIdeal
import proofs.«114667_j25185688224711_1_alg».proof.Proof.Gen.Pre_finite_inputs
import proofs.«114667_j25185688224711_1_alg».proof.Proof.Gen.ReferenceIdeal.Run
import proofs.«114667_j25185688224711_1_alg».proof.Proof.Gen.ReferenceIdeal.Read
import proofs.«114667_j25185688224711_1_alg».proof.Proof.Bridge
import proofs.«114667_j25185688224711_1_alg».proof.Proof.ReferenceResult
import proofs.«114667_j25185688224711_1_alg».proof.Proof.RealInputs
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- On the extended reals, from finite inputs that agree, the kernel's result is the fused entries and the reference's
    the unfused entries of the same arguments: equal, entry by entry. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r2, r3, r4, r5, r6⟩ := Cert.Pre_finite_inputs.RealInputs.all_inputs_real _ _ _ _ _ _ _ (hpre c)
  rw [Cert.ReferenceIdeal.Read.val_main_v13_eq, Cert.ReferenceIdeal.RefValue.reference_eq, a0, a1, a2, a3, a4, a5, a6]
  funext i
  obtain ⟨b, s, o, rfl⟩ : ∃ (b : Fin 4) (s : Fin 2048) (o : Fin 4096), i = ValueIdx.ix3 b s o :=
    ⟨i 0, i 1, i 2, ValueIdx.eq_ix3 i⟩
  exact (Cert.KernelIdeal.Bridge.result_entry m c r0 r2 r3 r4 r5 r6 b s o).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
